-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2048 : Shape := ⟨3, ![8, 256, 2048]⟩
abbrev S8x2048x256 : Shape := ⟨3, ![8, 2048, 256]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_

variable [Facts]

def fn {F : FTy → Type} [FloatOps F] (main_arg0 : FVec F S8x256x2048 .f32) (main_arg1 : FVec F S8x2048x256 .f32) (main_arg2 : FVec F S8x2048x256 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  main_v13
-- ==== Kernel.lean ====
abbrev S8x256x2048 : Shape := ⟨3, ![8, 256, 2048]⟩
abbrev S8x2048x256 : Shape := ⟨3, ![8, 2048, 256]⟩
abbrev S1x1024x256 : Shape := ⟨3, ![1, 1024, 256]⟩
abbrev S1x256x2048 : Shape := ⟨3, ![1, 256, 2048]⟩
abbrev S1x2048x256 : Shape := ⟨3, ![1, 2048, 256]⟩
abbrev S1x256x1024 : Shape := ⟨3, ![1, 256, 1024]⟩
abbrev S1024x256 : Shape := ⟨2, ![1024, 256]⟩
abbrev S256x2048 : Shape := ⟨2, ![256, 2048]⟩
abbrev S2048x256 : Shape := ⟨2, ![2048, 256]⟩
abbrev S1024x2048 : Shape := ⟨2, ![1024, 2048]⟩
abbrev S1024 : Shape := ⟨1, ![1024]⟩
abbrev S1024x1 : Shape := ⟨2, ![1024, 1]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S8x2048x256, .f32⟩
  | .hbm, ⟨2, _⟩ => ⟨S8x2048x256, .f32⟩
  | .hbm, ⟨3, _⟩ => ⟨S8x256x2048, .f32⟩
  | .local _ .vmem, ⟨0, _⟩ => ⟨S1x1024x256, .f32⟩
  | .local _ .vmem, ⟨1, _⟩ => ⟨S1x1024x256, .f32⟩
  | .local _ .vmem, ⟨2, _⟩ => ⟨S1x256x2048, .f32⟩
  | .local _ .vmem, ⟨3, _⟩ => ⟨S1x256x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x256x1024, .f32⟩
  | .local _ .vmem, ⟨7, _⟩ => ⟨S1x256x1024, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  transposes_S1024x256_p1_0_S256x1024 : S1024x256.Transposes [1, 0] S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S1024x256_S256x2048_S1024x2048_1_0_0_1_n_n_wf : DotDims.WF S1024x256 S256x2048 S1024x2048 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x2048x256.size a
  hwx0_0 : ∀ i : grid0.Coords, EltTy.bits .f32 = 32 ∨ (Rect.block (s := S8x2048x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x256x2048.size a
  hwx0_1 : ∀ i : grid0.Coords, EltTy.bits .f32 = 32 ∨ (Rect.block (s := S8x256x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x256.size a
  hwx0_2 : ∀ i : grid0.Coords, EltTy.bits .f32 = 32 ∨ (Rect.block (s := S8x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x256x2048.size a
  hwx0_3 : ∀ i : grid0.Coords, EltTy.bits .f32 = 32 ∨ (Rect.block (s := S8x256x2048) S1x256x1024.size (cc0_transform_3 i) (hinb0_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x2048 : Shape := ⟨3, ![8, 256, 2048]⟩
abbrev S8x2048x256 : Shape := ⟨3, ![8, 2048, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x2048x256, .f32⟩
  | .hbm, ⟨2, _⟩ => ⟨S8x2048x256, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x256, .f32⟩
  | .hbm, ⟨22, _⟩ => ⟨S8x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  transposes_S8x2048x256_S8x256x2048_0_2_1 : S8x2048x256.Transposes [0, 2, 1] S8x256x2048
  dot_S8x2048x256_S8x256x2048_S8x2048x2048_2_1_1_2_0_0_wf : DotDims.WF S8x2048x256 S8x256x2048 S8x2048x2048 [2] [1] [1] [2] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S8x256x2048_S8x2048x2048_2_1_1_2_0_0 : DotDims S8x2048x256 S8x256x2048 S8x2048x2048 where
  lhsContracting := [2]
  rhsContracting := [1]
  lhsNonContracting := [1]
  rhsNonContracting := [2]
  lhsBatch := [0]
  rhsBatch := [0]
  wf := dot_S8x2048x256_S8x256x2048_S8x2048x2048_2_1_1_2_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Softmax.lean ====
/-
  Softmax attention of one query row, on the extended reals.

  For a row of logits s(m) and a column of values w(m), m ranging over the keys, the attention output is

      ( Σ_m exp(s m − μ) · w m ) / ( Σ_m exp(s m − μ) ),      μ = max_m s m,

  where the quotient may be taken once, after the weighted sum (softAfter), or inside it, each weight
  exp(s m − μ) / Σ exp(· − μ) normalised before it multiplies w m (softBefore). On the extended reals the two differ
  in general: moving a factor across a sum is not a law where infinities occur. When every logit and every
  value is a real number they agree: μ is then a real (the greatest of finitely many reals, at least one),
  every exp(s m − μ) is a positive real, their sum D is a positive real, and the identity is the reals'
  (Σ e·w)·D⁻¹ = Σ (e·D⁻¹)·w.

  The same remark gives the logits: for real x(c), y(c) and a real scale a,  Σ_c (x c · a) · y c = a · Σ_c x c · y c,
  and the common value is a real.
-/
import Idealize.ShloMosaic.PureOps.Ideal

noncomputable section

open scoped BigOperators

namespace Cert.Attn

open Idealize.ShloMosaic

/-- An extended real that is a real number. -/
def IsReal (x : EReal) : Prop := ∃ r : ℝ, x = (r : EReal)

theorem isReal_coe (r : ℝ) : IsReal (r : EReal) := ⟨r, rfl⟩

/-- The coercion of the reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

section Row
variable {ι : Type} [Fintype ι]

/-- The greatest entry of a row, from −∞. -/
def rowMax (s : ι → EReal) : EReal := (Finset.univ : Finset ι).fold max ⊥ s

/-- The greatest of finitely many reals, at least one, is a real. -/
theorem rowMax_isReal [Nonempty ι] (s : ι → EReal) (hs : ∀ m, IsReal (s m)) : IsReal (rowMax s) := by
  have hlt : rowMax s < ⊤ := by
    unfold rowMax
    rw [Finset.fold_max_lt]
    refine ⟨bot_lt_top, fun m _ => ?_⟩
    obtain ⟨r, hr⟩ := hs m
    rw [hr]; exact EReal.coe_lt_top r
  have hgt : ⊥ < rowMax s := by
    unfold rowMax
    rw [Finset.lt_fold_max]
    refine Or.inr ⟨Classical.arbitrary ι, Finset.mem_univ _, ?_⟩
    obtain ⟨r, hr⟩ := hs (Classical.arbitrary ι)
    rw [hr]; exact EReal.bot_lt_coe r
  exact ⟨(rowMax s).toReal, (EReal.coe_toReal hlt.ne hgt.ne').symm⟩

/-- The quotient taken once, after the weighted sum. -/
def softAfter (s w : ι → EReal) : EReal :=
  Ideal.div (∑ m, Ideal.exp (s m - rowMax s) * w m) (∑ m, Ideal.exp (s m - rowMax s))

/-- Each weight normalised before it multiplies its value. -/
def softBefore (s w : ι → EReal) : EReal :=
  ∑ m, Ideal.div (Ideal.exp (s m - rowMax s)) (∑ m', Ideal.exp (s m' - rowMax s)) * w m

/-- On real logits and real values the two are one number. -/
theorem softBefore_eq_softAfter [Nonempty ι] (s w : ι → EReal) (hs : ∀ m, IsReal (s m)) (hw : ∀ m, IsReal (w m)) :
    softBefore s w = softAfter s w := by
  obtain ⟨μ, hμ⟩ := rowMax_isReal s hs
  choose sr hsr using hs
  choose wr hwr using hw
  -- every exponential is a positive real
  have he : ∀ m, Ideal.exp (s m - rowMax s) = ((Real.exp (sr m - μ) : ℝ) : EReal) := fun m => by
    rw [hsr m, hμ, ← EReal.coe_sub, Ideal.exp_coe]
  -- and so is their sum
  have hD : (∑ m, Ideal.exp (s m - rowMax s)) = ((∑ m, Real.exp (sr m - μ) : ℝ) : EReal) := by
    rw [coe_sum]; exact Finset.sum_congr rfl fun m _ => he m
  have hpos : (0 : ℝ) < ∑ m, Real.exp (sr m - μ) :=
    Finset.sum_pos (fun m _ => Real.exp_pos _) Finset.univ_nonempty
  unfold softBefore softAfter
  rw [hD, Ideal.div_coe hpos.ne']
  have hl : ∀ m, Ideal.div (Ideal.exp (s m - rowMax s)) ((∑ m, Real.exp (sr m - μ) : ℝ) : EReal) * w m
      = ((Real.exp (sr m - μ) * (1 / ∑ m, Real.exp (sr m - μ)) * wr m : ℝ) : EReal) := fun m => by
    rw [Ideal.div_coe hpos.ne', he m, hwr m, ← EReal.coe_mul, ← EReal.coe_mul]
  have hr : ∀ m, Ideal.exp (s m - rowMax s) * w m = ((Real.exp (sr m - μ) * wr m : ℝ) : EReal) := fun m => by
    rw [he m, hwr m, ← EReal.coe_mul]
  rw [Finset.sum_congr rfl fun m _ => hl m, Finset.sum_congr rfl fun m _ => hr m, ← coe_sum, ← coe_sum, ← EReal.coe_mul]
  congr 1
  rw [Finset.sum_mul]
  exact Finset.sum_congr rfl fun m _ => by ring

end Row

section Logit
variable {κ : Type} [Fintype κ]

/-- A real scale leaves a sum of products of reals: Σ (x·a)·y = a·Σ x·y, and the value is a real. -/
theorem scaled_dot (a : EReal) (x y : κ → EReal) (ha : IsReal a) (hx : ∀ c, IsReal (x c)) (hy : ∀ c, IsReal (y c)) :
    (∑ c, (x c * a) * y c) = a * ∑ c, x c * y c ∧ IsReal (a * ∑ c, x c * y c) := by
  obtain ⟨ar, rfl⟩ := ha
  choose xr hxr using hx
  choose yr hyr using hy
  have h1 : (∑ c, (x c * (ar : EReal)) * y c) = ((∑ c, (xr c * ar) * yr c : ℝ) : EReal) := by
    rw [coe_sum]; exact Finset.sum_congr rfl fun c _ => by rw [hxr c, hyr c, ← EReal.coe_mul, ← EReal.coe_mul]
  have h2 : (∑ c, x c * y c) = ((∑ c, xr c * yr c : ℝ) : EReal) := by
    rw [coe_sum]; exact Finset.sum_congr rfl fun c _ => by rw [hxr c, hyr c, ← EReal.coe_mul]
  rw [h1, h2, ← EReal.coe_mul]
  refine ⟨?_, isReal_coe _⟩
  congr 1
  rw [Finset.mul_sum]
  exact Finset.sum_congr rfl fun c _ => by ring

end Logit

/-! ## The two float words both programs share -/

/-- The scale both programs multiply the logits by: the value of the word 0x3D800000. Only that it is a real
    number is ever used. -/
def scale : EReal := Ideal.ofBits .f32 0x3D800000#32

theorem scale_isReal : IsReal scale := by
  simp [scale, IsReal, Ideal.ofBits, Ideal.ieee]
  exact ⟨8388608 * (2 ^ 27)⁻¹, by push_cast; rfl⟩

/-- The word 0xFF800000, from which both programs start a row's maximum, is −∞. -/
theorem neg_inf_f32 : Ideal.ofBits .f32 0xFF800000#32 = ⊥ := by simp [Ideal.ofBits, Ideal.ieee]

end Cert.Attn

end
-- ==== Proof.Spec.lean ====
/-
  The function both programs compute, and why the reference's arrangement of it is the kernel's.

  For keys k : [8, 256, 2048], queries q : [8, 2048, 256] and values v : [8, 2048, 256], entry (b, c, n) of the result is
  the attention output of query row n of batch b at channel c,

      attn b c n = ( Σ_m exp(l m − μ) · v[b, m, c] ) / ( Σ_m exp(l m − μ) ),   l m = Σ_c' (q[b, n, c'] · a) · k[b, c', m],   μ = max_m l m,

  written as the kernel computes it: the scale a on each query entry, the quotient after the weighted sum. The reference
  scales the finished dot product and normalises each weight first. On real arrays the two logits agree and are real
  (scaled_dot), and then the two placements of the quotient agree (softBefore_eq_softAfter).
-/
import proofs.«133170_j38044820308072_2_alg».proof.Proof.Softmax
import Idealize.ShloMosaic.Lib.ValueIdx

noncomputable section

namespace Cert.Attn

open Idealize.ShloMosaic Idealize.ShloMosaic.ValueIdx

variable (k : (⟨3, ![8, 256, 2048]⟩ : Shape).Idx → EReal) (q v : (⟨3, ![8, 2048, 256]⟩ : Shape).Idx → EReal)

/-- The logits of query row n of batch b, the scale on each query entry. -/
def attnLogit (b : Fin 8) (n m : Fin 2048) : EReal := ∑ c : Fin 256, (q (ix3 b n c) * scale) * k (ix3 b c m)

/-- The attention output of query row n of batch b at channel c. -/
def attn (b : Fin 8) (c : Fin 256) (n : Fin 2048) : EReal := softAfter (attnLogit k q b n) (fun m => v (ix3 b m c))

/-- The result array: channels before rows. -/
def attnArr : (⟨3, ![8, 256, 2048]⟩ : Shape).Idx → EReal := fun i => attn k q v (i 0) (i 1) (i 2)

theorem attnArr_ix3 (b : Fin 8) (c : Fin 256) (n : Fin 2048) : attnArr k q v (ix3 b c n) = attn k q v b c n := rfl

/-- On real arrays, the reference's arrangement — the scale outside the dot product, each weight normalised before the
    sum — is the same number. -/
theorem softBefore_scaled_eq_attn (hk : ∀ i, IsReal (k i)) (hq : ∀ i, IsReal (q i)) (hv : ∀ i, IsReal (v i))
    (b : Fin 8) (c : Fin 256) (n : Fin 2048) :
    softBefore (fun m : Fin 2048 => scale * ∑ c' : Fin 256, q (ix3 b n c') * k (ix3 b c' m)) (fun m => v (ix3 b m c))
      = attn k q v b c n := by
  haveI : Nonempty (Fin 2048) := ⟨⟨0, by decide⟩⟩
  have hl : ∀ m : Fin 2048, attnLogit k q b n m = scale * ∑ c' : Fin 256, q (ix3 b n c') * k (ix3 b c' m)
      ∧ IsReal (scale * ∑ c' : Fin 256, q (ix3 b n c') * k (ix3 b c' m)) := fun m =>
    scaled_dot scale (fun c' => q (ix3 b n c')) (fun c' => k (ix3 b c' m)) scale_isReal (fun _ => hq _) (fun _ => hk _)
  have e : (fun m : Fin 2048 => scale * ∑ c' : Fin 256, q (ix3 b n c') * k (ix3 b c' m)) = attnLogit k q b n :=
    funext fun m => (hl m).1.symm
  rw [e]
  exact softBefore_eq_softAfter _ _ (fun m => by rw [(hl m).1]; exact (hl m).2) (fun _ => hv _)

end Cert.Attn

end
-- ==== Proof.Finite.lean ====
/-
  The precondition, read back: every entry of the three argument arrays is a real number.

  The precondition is the conjunction, over the three arrays, of "every entry x has |x| < +∞", each taken as a
  reduction by "and" over the whole array. A conjunction that is 1 has both conjuncts 1; a reduction by "and" that
  is 1 met only 1s; and on the extended reals |x| = max x (−x) < +∞ excludes exactly x = +∞ and x = −∞.
-/
import proofs.«133170_j38044820308072_2_alg».proof.Pre_finite_inputs
import proofs.«133170_j38044820308072_2_alg».proof.Proof.Softmax
import Idealize.ShloMosaic.Lib.ReduceAll
import Idealize.ShloMosaic.Lib.ValueIdx
import Idealize.ShloMosaic.PureOps.Ideal.Laws

noncomputable section

namespace Cert.Attn

open Idealize.ShloMosaic

/-- The scalar shape has one index. -/
instance : Subsingleton Cert.Pre_finite_inputs.S_.Idx := ⟨fun a b => funext fun d => d.elim0⟩

/-- The word 0x7F800000 is +∞. -/
theorem inf_f32 : Ideal.ofBits .f32 0x7F800000#32 = ⊤ := by simp [Ideal.ofBits, Ideal.ieee]

/-- An extended real whose absolute value is below +∞ is a real. -/
theorem isReal_of_abs_lt_inf (x : EReal)
    (h : Ideal.cmp .olt (max x (-x)) (Ideal.ofBits .f32 0x7F800000#32) = 1#1) : IsReal x := by
  rw [inf_f32] at h
  have hlt : max x (-x) < ⊤ := by
    by_contra hc
    simp [Ideal.cmp, hc] at h
  induction x using EReal.rec with
  | bot => simp at hlt
  | top => simp at hlt
  | coe r => exact ⟨r, rfl⟩

variable [Cert.Pre_finite_inputs.Facts]

/-- Under the precondition every entry of every argument array is a real. -/
theorem finite_of_pre (a0 : FVec Ideal Cert.Pre_finite_inputs.S8x256x2048 .f32)
    (a1 a2 : FVec Ideal Cert.Pre_finite_inputs.S8x2048x256 .f32)
    (h : Cert.Pre_finite_inputs.fn (F := Ideal) a0 a1 a2 = fun _ => 1#1) :
    (∀ i, IsReal (a0 i)) ∧ (∀ i, IsReal (a1 i)) ∧ (∀ i, IsReal (a2 i)) := by
  have h0 := congrFun h ValueIdx.ix0
  unfold Cert.Pre_finite_inputs.fn at h0
  dsimp only at h0
  obtain ⟨h01, h2⟩ := IntOp.andi_eq_one.1 h0
  obtain ⟨h0', h1⟩ := IntOp.andi_eq_one.1 h01
  refine ⟨fun i => ?_, fun i => ?_, fun i => ?_⟩
  · exact isReal_of_abs_lt_inf _ (Host.reduce_andi_all _ _ _ _ _ h0' i)
  · exact isReal_of_abs_lt_inf _ (Host.reduce_andi_all _ _ _ _ _ h1 i)
  · exact isReal_of_abs_lt_inf _ (Host.reduce_andi_all _ _ _ _ _ h2 i)

end Cert.Attn

end
-- ==== Proof.KernelBlock.lean ====
/-
  What the kernel body stores for one block, read at an index.

  At a grid point the body holds a block q of 1024 query rows (each of 256 channels), the batch's whole key matrix k
  (256 × 2048) and value matrix v (2048 × 256). It stores, transposed, the 1024 × 256 matrix whose entry (n, c) is

      ( Σ_m exp(l n m − μ n) · v m c ) / ( Σ_m exp(l n m − μ n) ),   l n m = Σ_c' (q n c' · a) · k c' m,   μ n = max_m l n m,

  a the scale: softAfter of the row's logits and the value column. The body is taken stage by stage — scaled queries,
  logits, row maximum, exponentials, their row sum, the weighted sum — each stage read at an index: a format change is
  the identity, a matrix product into the zero accumulator is the sum over the contracted axis, a row reduction is the
  fold or the sum over the row, and the casts, the broadcast of a column and the transpose only move indices.
-/
import proofs.«133170_j38044820308072_2_alg».proof.Proof.Gen.KernelIdeal.Frame
import proofs.«133170_j38044820308072_2_alg».proof.Proof.Softmax
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen Cert.Attn

variable (x0 : FVec Ideal S1x1024x256 .f32) (x1 : FVec Ideal S1x256x2048 .f32) (x2 : FVec Ideal S1x2048x256 .f32)

/-! ## The stages -/

/-- The query block, scaled. -/
def scaledQ : FVec Ideal S1024x256 .bf16 :=
  truncf .bf16 (mulf (shapeCast S1024x256 x0 shapeCasts_S1x1024x256_S1024x256) (broadcast S1024x256 (Scalar.ofBits .f32 0x3D800000#32))) bitsLt_bf16_f32
/-- The batch's keys. -/
def keys : FVec Ideal S256x2048 .bf16 := truncf .bf16 (shapeCast S256x2048 x1 shapeCasts_S1x256x2048_S256x2048) bitsLt_bf16_f32
/-- The batch's values. -/
def vals : FVec Ideal S2048x256 .bf16 := truncf .bf16 (shapeCast S2048x256 x2 shapeCasts_S1x2048x256_S2048x256) bitsLt_bf16_f32
/-- The logits: scaled queries times keys. -/
def logits : FVec Ideal S1024x2048 .f32 :=
  matmul dot_S1024x256_S256x2048_S1024x2048_1_0_0_1_n_n none (scaledQ x0) (keys x1) (constant S1024x2048 .f32 0x00000000#32)
/-- Each row's greatest logit. -/
def rmax : FVec Ideal S1024 .f32 :=
  multiReduction .maximumf [1] S1024 (logits x0 x1) 0xFF800000#32 reduces_S1024x2048_S1024 (.inl rfl) rfl
/-- The exponentials of the logits less their row's maximum. -/
def wts : FVec Ideal S1024x2048 .f32 :=
  exp (subf (logits x0 x1) (broadcastTo S1024x2048 (shapeCast S1024x1 (rmax x0 x1) shapeCasts_S1024_S1024x1) broadcasts_S1024x1_S1024x2048))
/-- Each row's sum of exponentials. -/
def den : FVec Ideal S1024 .f32 :=
  multiReduction .add [1] S1024 (wts x0 x1) 0x00000000#32 reduces_S1024x2048_S1024 (.inl rfl) rfl
/-- The exponentials times the values. -/
def num : FVec Ideal S1024x256 .f32 :=
  matmul dot_S1024x2048_S2048x256_S1024x256_1_0_0_1_n_n none (truncf .bf16 (wts x0 x1) bitsLt_bf16_f32) (vals x2) (constant S1024x256 .f32 0x00000000#32)

/-- The stored value is the quotient of the last two, transposed. -/
theorem pay_eq : k0_pay1 (F := Ideal) x0 x1 x2 = shapeCast S1x256x1024 (transpose S256x1024 [1, 0]
    (divf (num x0 x1 x2) (broadcastTo S1024x256 (shapeCast S1024x1 (den x0 x1) shapeCasts_S1024_S1024x1) broadcasts_S1024x1_S1024x256))
    transposes_S1024x256_p1_0_S256x1024) shapeCasts_S256x1024_S1x256x1024 := rfl

/-! ## Indices that only move -/

/-- A [1, a, b] block viewed [a, b]: entry (p, r) is entry (0, p, r). -/
theorem dropUnit_apply {a b : Nat} {α : Type} (x : (⟨3, ![1, a, b]⟩ : Shape).Idx → α)
    (h : (⟨3, ![1, a, b]⟩ : Shape).ShapeCasts ⟨2, ![a, b]⟩) (p : Fin a) (r : Fin b) :
    shapeCast ⟨2, ![a, b]⟩ x h (ix2 p r) = x (ix3 (0 : Fin 1) p r) :=
  shapeCast_apply x h (ix2 p r) (ix3 (0 : Fin 1) p r) (by
    rw [Shape.rowMajor_val_three, Shape.rowMajor_val_two]
    show (0 * a + p.val) * b + r.val = p.val * b + r.val
    rw [Nat.zero_mul, Nat.zero_add])

/-- A column [a] viewed [a, 1] and broadcast along rows of length b: entry (p, r) is entry p. -/
theorem column_apply {a b : Nat} (hb : b ≠ 1) (ha : a ≠ 1) {α : Type} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (r : Fin b) :
    broadcastTo ⟨2, ![a, b]⟩ (shapeCast ⟨2, ![a, 1]⟩ x h) h' (ix2 p r) = x (ix1 p) := by
  refine (broadcastTo_apply _ h' (ix2 p r) (ix2 p (0 : Fin 1)) fun d => ?_).trans ?_
  · match d with
    | ⟨0, _⟩ => show p.val = if a = 1 then 0 else p.val; rw [if_neg ha]
    | ⟨1, _⟩ => show 0 = if (1 : Nat) = 1 then 0 else r.val; rw [if_pos rfl]
  · exact shapeCast_apply x h (ix2 p (0 : Fin 1)) (ix1 p) (by
      rw [Shape.rowMajor_val_one, Shape.rowMajor_val_two]
      show p.val = p.val * 1 + 0
      omega)

/-! ## The two matrix products' operand indices

Both products contract the left operand's second axis with the right operand's first: at output index (r, s) and
contraction coordinate k the operands are read at (r, k) and (k, s). -/

theorem qk_lhs_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem qk_lhs_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
theorem qk_rhs_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
theorem qk_rhs_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

theorem pv_lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem pv_lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem pv_rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem pv_rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-! ## The stages at an index -/

theorem scaledQ_apply (n : Fin 1024) (c : Fin 256) : scaledQ x0 (ix2 n c) = x0 (ix3 (0 : Fin 1) n c) * scale :=
  congrArg (· * scale) (dropUnit_apply x0 shapeCasts_S1x1024x256_S1024x256 n c)

theorem keys_apply (c : Fin 256) (m : Fin 2048) : keys x1 (ix2 c m) = x1 (ix3 (0 : Fin 1) c m) :=
  dropUnit_apply x1 shapeCasts_S1x256x2048_S256x2048 c m

theorem vals_apply (m : Fin 2048) (c : Fin 256) : vals x2 (ix2 m c) = x2 (ix3 (0 : Fin 1) m c) :=
  dropUnit_apply x2 shapeCasts_S1x2048x256_S2048x256 m c

/-- The row's logits against every key. -/
def rowLogit (n : Fin 1024) (m : Fin 2048) : EReal := ∑ c : Fin 256, (x0 (ix3 (0 : Fin 1) n c) * scale) * x1 (ix3 (0 : Fin 1) c m)

theorem logits_apply (n : Fin 1024) (m : Fin 2048) : logits x0 x1 (ix2 n m) = rowLogit x0 x1 n m := by
  unfold logits rowLogit
  simp only [matmul]
  rw [Ideal.matmul_constant_zero_apply, ← Equiv.sum_comp (contrEquiv1 dot_S1024x256_S256x2048_S1024x2048_1_0_0_1_n_n 256 rfl rfl).symm]
  refine Finset.sum_congr rfl fun c _ => ?_
  have hk := contrEquiv1_symm_val dot_S1024x256_S256x2048_S1024x2048_1_0_0_1_n_n 256 rfl rfl c
  have el : dot_S1024x256_S256x2048_S1024x2048_1_0_0_1_n_n.lhsIdx (ix2 n m) ((contrEquiv1 dot_S1024x256_S256x2048_S1024x2048_1_0_0_1_n_n 256 rfl rfl).symm c) = ix2 n c :=
    funext fun a => Fin.ext (by
      match a with
      | ⟨0, _⟩ => exact qk_lhs_0 _ _
      | ⟨1, _⟩ => exact (qk_lhs_1 _ _).trans hk)
  have er : dot_S1024x256_S256x2048_S1024x2048_1_0_0_1_n_n.rhsIdx (ix2 n m) ((contrEquiv1 dot_S1024x256_S256x2048_S1024x2048_1_0_0_1_n_n 256 rfl rfl).symm c) = ix2 c m :=
    funext fun a => Fin.ext (by
      match a with
      | ⟨0, _⟩ => exact (qk_rhs_0 _ _).trans hk
      | ⟨1, _⟩ => exact qk_rhs_1 _ _)
  rw [el, er, scaledQ_apply, keys_apply]

/-- The reduced index with the row's coordinate put back is the matrix index. -/
theorem lift_row (n : Fin 1024) (m : Fin 2048) : reduces_S1024x2048_S1024.lift (ix1 n) m = ix2 n m :=
  funext fun a => Fin.ext (by match a with | ⟨0, _⟩ => rfl | ⟨1, _⟩ => rfl)

theorem rmax_apply (n : Fin 1024) : rmax x0 x1 (ix1 n) = rowMax (rowLogit x0 x1 n) := by
  unfold rmax
  refine (Ideal.multiReduction_maximumf_single (logits x0 x1) 0xFF800000#32 reduces_S1024x2048_S1024 (.inl rfl) rfl (ix1 n)).trans ?_
  have e : (logits x0 x1 ∘ reduces_S1024x2048_S1024.lift (ix1 n)) = rowLogit x0 x1 n :=
    funext fun m => (congrArg (logits x0 x1) (lift_row n m)).trans (logits_apply x0 x1 n m)
  rw [e]
  show Finset.fold max (Ideal.ofBits .f32 0xFF800000#32) (rowLogit x0 x1 n) Finset.univ = _
  rw [neg_inf_f32]
  rfl

theorem wts_apply (n : Fin 1024) (m : Fin 2048) :
    wts x0 x1 (ix2 n m) = Ideal.exp (rowLogit x0 x1 n m - rowMax (rowLogit x0 x1 n)) := by
  show Ideal.exp (logits x0 x1 (ix2 n m) - broadcastTo S1024x2048 (shapeCast S1024x1 (rmax x0 x1) shapeCasts_S1024_S1024x1) broadcasts_S1024x1_S1024x2048 (ix2 n m)) = _
  rw [column_apply (by decide) (by decide) (rmax x0 x1) shapeCasts_S1024_S1024x1 broadcasts_S1024x1_S1024x2048 n m, logits_apply, rmax_apply]

theorem den_apply (n : Fin 1024) :
    den x0 x1 (ix1 n) = ∑ m : Fin 2048, Ideal.exp (rowLogit x0 x1 n m - rowMax (rowLogit x0 x1 n)) := by
  unfold den
  refine (Ideal.multiReduction_add_single (wts x0 x1) 0x00000000#32 reduces_S1024x2048_S1024 (.inl rfl) rfl (ix1 n)).trans ?_
  exact Finset.sum_congr rfl fun m _ => (congrArg (wts x0 x1) (lift_row n m)).trans (wts_apply x0 x1 n m)

theorem num_apply (n : Fin 1024) (c : Fin 256) :
    num x0 x1 x2 (ix2 n c) = ∑ m : Fin 2048, Ideal.exp (rowLogit x0 x1 n m - rowMax (rowLogit x0 x1 n)) * x2 (ix3 (0 : Fin 1) m c) := by
  unfold num
  simp only [matmul]
  rw [Ideal.matmul_constant_zero_apply, ← Equiv.sum_comp (contrEquiv1 dot_S1024x2048_S2048x256_S1024x256_1_0_0_1_n_n 2048 rfl rfl).symm]
  refine Finset.sum_congr rfl fun m _ => ?_
  have hk := contrEquiv1_symm_val dot_S1024x2048_S2048x256_S1024x256_1_0_0_1_n_n 2048 rfl rfl m
  have el : dot_S1024x2048_S2048x256_S1024x256_1_0_0_1_n_n.lhsIdx (ix2 n c) ((contrEquiv1 dot_S1024x2048_S2048x256_S1024x256_1_0_0_1_n_n 2048 rfl rfl).symm m) = ix2 n m :=
    funext fun a => Fin.ext (by
      match a with
      | ⟨0, _⟩ => exact pv_lhs_0 _ _
      | ⟨1, _⟩ => exact (pv_lhs_1 _ _).trans hk)
  have er : dot_S1024x2048_S2048x256_S1024x256_1_0_0_1_n_n.rhsIdx (ix2 n c) ((contrEquiv1 dot_S1024x2048_S2048x256_S1024x256_1_0_0_1_n_n 2048 rfl rfl).symm m) = ix2 m c :=
    funext fun a => Fin.ext (by
      match a with
      | ⟨0, _⟩ => exact (pv_rhs_0 _ _).trans hk
      | ⟨1, _⟩ => exact pv_rhs_1 _ _)
  rw [el, er, vals_apply]
  exact congrArg (· * x2 (ix3 (0 : Fin 1) m c)) (wts_apply x0 x1 n m)

/-! ## The stored block at an index -/

/-- Entry (0, c, n) of what the body stores: the attention output of query row n at channel c. -/
theorem pay_apply (c : Fin 256) (n : Fin 1024) :
    k0_pay1 (F := Ideal) x0 x1 x2 (ix3 (0 : Fin 1) c n) = softAfter (rowLogit x0 x1 n) (fun m => x2 (ix3 (0 : Fin 1) m c)) := by
  rw [pay_eq]
  refine (shapeCast_apply _ shapeCasts_S256x1024_S1x256x1024 (ix3 (0 : Fin 1) c n) (ix2 c n) (by
    rw [Shape.rowMajor_val_three, Shape.rowMajor_val_two]
    show c.val * 1024 + n.val = (0 * 256 + c.val) * 1024 + n.val
    omega)).trans ?_
  refine (transpose_apply [1, 0] _ transposes_S1024x256_p1_0_S256x1024 (ix2 c n) (ix2 n c) fun b => by
    match b with | ⟨0, _⟩ => rfl | ⟨1, _⟩ => rfl).trans ?_
  show Ideal.div (num x0 x1 x2 (ix2 n c)) (broadcastTo S1024x256 (shapeCast S1024x1 (den x0 x1) shapeCasts_S1024_S1024x1) broadcasts_S1024x1_S1024x256 (ix2 n c)) = _
  rw [column_apply (by decide) (by decide) (den x0 x1) shapeCasts_S1024_S1024x1 broadcasts_S1024x1_S1024x256 n c, num_apply, den_apply]
  rfl

end Cert.KernelIdeal.Block

end
-- ==== Proof.KernelArray.lean ====
/-
  From the blocks to the kernel's result array.

  The grid has 8 × 2 points (b, h). At point (b, h) the body is given rows h·1024 … h·1024 + 1023 of batch b's
  queries and the whole of batch b's keys and values, and its 256 × 1024 result is written to channels 0 … 255, rows
  h·1024 … h·1024 + 1023 of batch b of the output. So what a point writes is its block of the one array attnArr of
  the arguments (each entry of a block read where the block sits in its array: block index × block size + the
  coordinate inside the block), the sixteen blocks cover the output array (row r of batch b lies in the block of point
  (b, r / 1024)), and the array after the run is attnArr of the arguments.
-/
import proofs.«133170_j38044820308072_2_alg».proof.Proof.Gen.KernelIdeal.Value
import proofs.«133170_j38044820308072_2_alg».proof.Proof.KernelBlock
import proofs.«133170_j38044820308072_2_alg».proof.Proof.Spec

set_option maxRecDepth 16384

noncomputable section

namespace Cert.KernelIdeal.ArrayValue

open Cert.KernelIdeal Cert.KernelIdeal.Gen Cert.KernelIdeal.Block Cert.Attn
open Idealize.ShloMosaic Idealize.ShloMosaic.TcCoe Idealize.ShloMosaic.ValueIdx Idealize.SL.Sem
open Idealize.ShloMosaic.Pipeline (Dat)

/-! ## One block, over any arrays it is cut from -/

/-- If the three loaded blocks are rows n0 … n0 + 1023 of batch b's queries and all of batch b's keys and values, the
    stored block's entry (0, c, n) is the attention output of row n0 + n at channel c. -/
theorem block_attn (k : FVec Ideal S8x256x2048 .f32) (q v : FVec Ideal S8x2048x256 .f32)
    (x0 : FVec Ideal S1x1024x256 .f32) (x1 : FVec Ideal S1x256x2048 .f32) (x2 : FVec Ideal S1x2048x256 .f32)
    (b : Fin 8) (n0 : Nat) (hn0 : n0 + 1024 ≤ 2048)
    (h0 : ∀ (n : Fin 1024) (c : Fin 256), x0 (ix3 (0 : Fin 1) n c) = q (ix3 b (⟨n0 + n.val, by have := n.isLt; omega⟩ : Fin 2048) c))
    (h1 : ∀ (c : Fin 256) (mm : Fin 2048), x1 (ix3 (0 : Fin 1) c mm) = k (ix3 b c mm))
    (h2 : ∀ (mm : Fin 2048) (c : Fin 256), x2 (ix3 (0 : Fin 1) mm c) = v (ix3 b mm c))
    (c : Fin 256) (n : Fin 1024) :
    k0_pay1 (F := Ideal) x0 x1 x2 (ix3 (0 : Fin 1) c n) = attn k q v b c ⟨n0 + n.val, by have := n.isLt; omega⟩ := by
  rw [pay_apply]
  unfold attn
  have e1 : rowLogit x0 x1 n = attnLogit k q b ⟨n0 + n.val, by have := n.isLt; omega⟩ := funext fun mm => by
    unfold rowLogit attnLogit
    exact Finset.sum_congr rfl fun c' _ => by rw [h0, h1]
  have e2 : (fun mm => x2 (ix3 (0 : Fin 1) mm c)) = fun mm => v (ix3 b mm c) := funext fun mm => h2 mm c
  rw [e1, e2]

/-! ## The grid's index maps -/

variable (m : (ℓ : Loc nD τ sig) → Buf (Elt Ideal) ℓ) (ρ : Dev nD → PrngReg)

theorem off_zero : (![0, 0, 0] : Fin 3 → Nat) = fun _ => 0 := funext fun a => by fin_cases a <;> rfl

/-- The printed index maps, decided over the sixteen points: every input block is of the output block's batch, the
    query block is at the output block's row position, and everything else is at block index 0. -/
theorem idx_facts : ∀ t : Fin cfg0.N,
    win0_0.index t (0 : Fin 3) = win0_3.index t (0 : Fin 3) ∧ win0_0.index t (1 : Fin 3) = win0_3.index t (2 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (0 : Fin 3) < 8 ∧ win0_3.index t (2 : Fin 3) < 2 :=
  (by decide +kernel : ∀ t : Fin grid0.N, _)

/-- Every (batch, row half) is some point's output block. -/
theorem idx_onto : ∀ (b : Fin 8) (h : Fin 2), ∃ t : Fin cfg0.N, win0_3.index t = ![b.val, 0, h.val] :=
  (by decide +kernel : ∀ (b : Fin 8) (h : Fin 2), ∃ t : Fin grid0.N, win0_3.index t = ![b.val, 0, h.val])

/-! ## What a point writes back -/

/-- Point t writes block t of attnArr of the argument arrays. -/
theorem flushed_eq (c : Dev nD) (t : Fin cfg0.N) :
    (dats m 0 c).flushed 3 t = ((cfg0.win 3).blk t).view.read (Elt Ideal)
      (attnArr (V m c main_arg0) (V m c main_arg1) (V m c main_arg2)) := by
  rw [Value.flushed3]
  unfold out0_3
  rw [View.canon_unit_zero off_zero]
  simp only [View.ld_unit_zero (S := S1x1024x256) off_zero, View.ld_unit_zero (S := S1x256x2048) off_zero,
    View.ld_unit_zero (S := S1x2048x256) off_zero]
  obtain ⟨e00, e01, e02, e10, e11, e12, e20, e21, e22, e31, hb, hh⟩ := idx_facts t
  refine funext fun (j : S1x256x1024.Idx) => ?_
  obtain ⟨j0, cc, nn, rfl⟩ : ∃ (j0 : Fin 1) (cc : Fin 256) (nn : Fin 1024), j = ix3 j0 cc nn := ⟨j 0, j 1, j 2, eq_ix3 j⟩
  obtain rfl : j0 = 0 := Subsingleton.elim _ _
  have hcc := cc.isLt
  have hnn := nn.isLt
  show k0_pay1 (F := Ideal) (iblk m c 0 t) (iblk m c 1 t) (iblk m c 2 t) (ix3 (0 : Fin 1) cc nn)
    = attnArr (V m c main_arg0) (V m c main_arg1) (V m c main_arg2) (((cfg0.win 3).blk t).view.emb (ix3 (0 : Fin 1) cc nn))
  have hemb : ((cfg0.win 3).blk t).view.emb (ix3 (0 : Fin 1) cc nn)
      = ix3 (⟨win0_3.index t (0 : Fin 3), hb⟩ : Fin 8) cc (⟨win0_3.index t (2 : Fin 3) * 1024 + nn.val, by omega⟩ : Fin 2048) := by
    funext a; apply Fin.ext
    match a with
    | ⟨0, _⟩ => show win0_3.index t (0 : Fin 3) * 1 + 1 * 0 = win0_3.index t (0 : Fin 3); omega
    | ⟨1, _⟩ => show win0_3.index t (1 : Fin 3) * 256 + 1 * cc.val = cc.val; omega
    | ⟨2, _⟩ => show win0_3.index t (2 : Fin 3) * 1024 + 1 * nn.val = win0_3.index t (2 : Fin 3) * 1024 + nn.val; omega
  rw [hemb, attnArr_ix3]
  refine block_attn (V m c main_arg0) (V m c main_arg1) (V m c main_arg2) (iblk m c 0 t) (iblk m c 1 t) (iblk m c 2 t)
    ⟨win0_3.index t (0 : Fin 3), hb⟩ (win0_3.index t (2 : Fin 3) * 1024) (by omega) ?_ ?_ ?_ cc nn
  · intro n c'
    have hn := n.isLt
    have hc' := c'.isLt
    show V m c main_arg1 (((cfg0.win 0).blk t).view.emb (ix3 (0 : Fin 1) n c')) = V m c main_arg1 _
    refine congrArg (V m c main_arg1) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * n.val = win0_3.index t (2 : Fin 3) * 1024 + n.val; omega
    | ⟨2, _⟩ => show win0_0.index t (2 : Fin 3) * 256 + 1 * c'.val = c'.val; omega
  · intro c' mm
    have hmm := mm.isLt
    have hc' := c'.isLt
    show V m c main_arg0 (((cfg0.win 1).blk t).view.emb (ix3 (0 : Fin 1) c' mm)) = V m c main_arg0 _
    refine congrArg (V m c main_arg0) (funext fun a => Fin.ext ?_)
    match a with
    | ⟨0, _⟩ => show win0_1.index t (0 : Fin 3) * 1 + 1 * 0 = win0_3.index t (0 : Fin 3); omega
    | ⟨1, _⟩ => show win0_1.index t (1 : Fin 3) * 256 + 1 * c'.val = c'.val; omega
    | ⟨2, _⟩ => show win0_1.index t (2 : Fin 3) * 2048 + 1 * mm.val = mm.val; omega
  · intro mm c'
    have hmm := mm.isLt
    have hc' := c'.isLt
    show V m c main_arg2 (((cfg0.win 2).blk t).view.emb (ix3 (0 : Fin 1) mm c')) = V m c main_arg2 _
    refine congrArg (V m c main_arg2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * mm.val = mm.val; omega
    | ⟨2, _⟩ => show win0_2.index t (2 : Fin 3) * 256 + 1 * c'.val = c'.val; omega

/-! ## The blocks cover the array -/

/-- An index of the array is in point t's block iff each coordinate is in the block's range on its axis. -/
theorem mem_blk (t : Fin cfg0.N) (i : S8x256x2048.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v0).slice (win0_3.rect t)).set ↔ _
  rw [View.set_slice_whole, Rect.mem_set_unit]
  exact Iff.rfl

/-- Every index of the output array lies in the block of the point of its batch and row half. -/
theorem cover (i : S8x256x2048.Idx) : ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 2048 := (i 2).isLt
  obtain ⟨t, ht⟩ := idx_onto ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-! ## The array after the run -/

/-- The output array after the run is attnArr of the argument arrays as launched. -/
theorem final (c : Dev nD) : (dats m 0 c).arrAt 3 cfg0.N
    = attnArr (m ((c : Thread nD τ).loc main_arg0)) (m ((c : Thread nD τ).loc main_arg1)) (m ((c : Thread nD τ).loc main_arg2)) :=
  (dats m 0 c).arrAt_eq_of_cover 3 (attnArr (V m c main_arg0) (V m c main_arg1) (V m c main_arg2))
    (fun t _ => flushed_eq m c t) cover

/-- The kernel's run with the result named: every weakly fair execution ends with the output array at attnArr of
    the arguments, the arguments unchanged. -/
theorem run : θ_run defs (onTc (τ := τ) (main (F := Ideal))) ⟨m, fun _ => 0, ρ⟩ fun r => ∀ c : Dev nD,
      r.2.mem ((c : Thread nD τ).loc main_v0)
        = attnArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefValue.lean ====
/-
  The reference's result, read at an index.

  The reference computes, for batch b, the logits l n m = a · Σ_c' q[b, n, c'] · k[b, c', m] (the scale a outside the
  sum), each row's maximum μ n from −∞, the exponentials exp(l n m − μ n), their row sum, the normalised weights
  exp(l n m − μ n) / Σ_m' exp(l n m' − μ n), their product with the values v[b, m, c] summed over m, and the transpose.
  So entry (b, c, n) of its result is softBefore of the row of logits and the value column. Each operation is read at
  an index one at a time; a maximum with −∞ and a sum started from 0 leave their other operand.
-/
import proofs.«133170_j38044820308072_2_alg».proof.Proof.Gen.ReferenceIdeal.Read
import proofs.«133170_j38044820308072_2_alg».proof.Proof.Softmax
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Attn

variable (k : FVec Ideal S8x256x2048 .f32) (q v : FVec Ideal S8x2048x256 .f32)

/-- The reference's logits of query row n of batch b: the scale outside the sum over the channels. -/
def refLogit (b : Fin 8) (n m : Fin 2048) : EReal := scale * ∑ c : Fin 256, q (ix3 b n c) * k (ix3 b c m)

theorem logit_apply (b : Fin 8) (n m : Fin 2048) : val_main_v2 (F := Ideal) k q (ix3 b n m) = refLogit k q b n m := by
  have el : ∀ c : Fin 256, lidx_main_v0 (ix3 b n m) c = ix3 b n c := fun c =>
    funext fun a => Fin.ext (by match a with | ⟨0, _⟩ => rfl | ⟨1, _⟩ => rfl | ⟨2, _⟩ => rfl)
  have er : ∀ c : Fin 256, ridx_main_v0 (ix3 b n m) c = ix3 b c m := fun c =>
    funext fun a => Fin.ext (by match a with | ⟨0, _⟩ => rfl | ⟨1, _⟩ => rfl | ⟨2, _⟩ => rfl)
  rw [val_main_v2_apply, val_main_v1_apply, val_main_cst_apply, val_main_v0_apply]
  simp only [el, er]
  rfl

/-- The reduction's witness at the literal shapes, which names the index with the reduced coordinate put back. -/
theorem hred : S8x2048x2048.Reduces [2] S8x2048 := by decide

theorem lift_row (b : Fin 8) (n m : Fin 2048) : hred.lift (ix2 b n) m = ix3 b n m :=
  funext fun a => Fin.ext (by match a with | ⟨0, _⟩ => rfl | ⟨1, _⟩ => rfl | ⟨2, _⟩ => rfl)

theorem max_apply (b : Fin 8) (n : Fin 2048) : val_main_v5 (F := Ideal) k q (ix2 b n) = rowMax (refLogit k q b n) := by
  rw [val_main_v5_apply, val_main_v4_apply, val_main_cst_1_apply]
  unfold val_main_v3
  rw [Host.reduce_eq_fold_single (FloatOps.maximumf (F := Ideal) (φ := .f32)) (val_main_v2 (F := Ideal) k q) (val_main_cst_0 (F := Ideal)) reducesTo_S8x2048x2048_S8x2048_d2 hred h_S_ (ix2 b n)]
  have e : (val_main_v2 (F := Ideal) k q ∘ hred.lift (ix2 b n)) = refLogit k q b n :=
    funext fun m => (congrArg (val_main_v2 (F := Ideal) k q) (lift_row b n m)).trans (logit_apply k q b n m)
  rw [e]
  show max (Ideal.ofBits .f32 0xFF800000#32) (Finset.fold max (Ideal.ofBits .f32 0xFF800000#32) (refLogit k q b n) Finset.univ) = _
  rw [neg_inf_f32, max_bot_left]
  rfl

theorem exp_apply (b : Fin 8) (n m : Fin 2048) :
    val_main_v9 (F := Ideal) k q (ix3 b n m) = Ideal.exp (refLogit k q b n m - rowMax (refLogit k q b n)) := by
  have e : idx_main_v6 (idx_main_v7 (ix3 b n m)) = ix2 b n :=
    funext fun a => Fin.ext (by match a with | ⟨0, _⟩ => rfl | ⟨1, _⟩ => rfl)
  rw [val_main_v9_apply, val_main_v8_apply, val_main_v7_apply, val_main_v6_apply, e, max_apply, logit_apply]
  rfl

theorem sum_apply (b : Fin 8) (n : Fin 2048) :
    val_main_v10 (F := Ideal) k q (ix2 b n) = ∑ m : Fin 2048, Ideal.exp (refLogit k q b n m - rowMax (refLogit k q b n)) := by
  have e : ∀ m : Fin 2048, idx_main_v10 (ix2 b n) m = ix3 b n m := fun m =>
    funext fun a => Fin.ext (by match a with | ⟨0, _⟩ => rfl | ⟨1, _⟩ => rfl | ⟨2, _⟩ => rfl)
  rw [val_main_v10_apply, val_main_cst_2_apply]
  show Ideal.ofBits .f32 0x00000000#32 + _ = _
  rw [Ideal.ofBits_zero_f32, zero_add]
  exact Finset.sum_congr rfl fun m _ => by rw [e m, exp_apply]

theorem weight_apply (b : Fin 8) (n m : Fin 2048) :
    val_main_v13 (F := Ideal) k q (ix3 b n m)
      = Ideal.div (Ideal.exp (refLogit k q b n m - rowMax (refLogit k q b n)))
          (∑ m' : Fin 2048, Ideal.exp (refLogit k q b n m' - rowMax (refLogit k q b n))) := by
  have e : idx_main_v11 (idx_main_v12 (ix3 b n m)) = ix2 b n :=
    funext fun a => Fin.ext (by match a with | ⟨0, _⟩ => rfl | ⟨1, _⟩ => rfl)
  rw [val_main_v13_apply, val_main_v12_apply, val_main_v11_apply, e, sum_apply, exp_apply]
  rfl

/-- Entry (b, c, n) of the reference's result: the weights normalised, then summed against the value column. -/
theorem result_apply (b : Fin 8) (c : Fin 256) (n : Fin 2048) :
    val_main_v15 (F := Ideal) k q v (ix3 b c n) = softBefore (refLogit k q b n) (fun m => v (ix3 b m c)) := by
  have el : ∀ m : Fin 2048, lidx_main_v14 (idx_main_v15 (ix3 b c n)) m = ix3 b n m := fun m =>
    funext fun a => Fin.ext (by match a with | ⟨0, _⟩ => rfl | ⟨1, _⟩ => rfl | ⟨2, _⟩ => rfl)
  have er : ∀ m : Fin 2048, ridx_main_v14 (idx_main_v15 (ix3 b c n)) m = ix3 b m c := fun m =>
    funext fun a => Fin.ext (by match a with | ⟨0, _⟩ => rfl | ⟨1, _⟩ => rfl | ⟨2, _⟩ => rfl)
  rw [val_main_v15_apply, val_main_v14_apply]
  unfold softBefore
  exact Finset.sum_congr rfl fun m _ => by rw [el m, er m, weight_apply]

end Cert.ReferenceIdeal.RefValue

end
-- ==== Proof.lean ====
/-
  A softmax attention kernel against its reference, on the extended reals.

  Keys k : [8, 256, 2048], queries q : [8, 2048, 256], values v : [8, 2048, 256]; the result is [8, 256, 2048], entry (b, c, n)
  the attention output of query row n of batch b at channel c (Proof/Spec.lean, attn):

      ( Σ_m exp(l m − μ) · v[b, m, c] ) / ( Σ_m exp(l m − μ) ),    l m = (1/16) Σ_c' q[b, n, c'] · k[b, c', m],   μ = max_m l m.

  The kernel works on a grid of 8 × 2 blocks of 1024 query rows; within a block it scales the queries before the first
  matrix product and divides by the sum of exponentials after the second (Proof/KernelBlock.lean reads the stored block
  at an index; Proof/KernelArray.lean shows the sixteen blocks are the blocks of one array and cover it). The reference
  scales the finished product, normalises every weight, and only then multiplies by the values (Proof/RefValue.lean).
  The two arrangements differ by moving a real factor across a finite sum, twice; that is a law of the reals, not of the
  extended reals, and it is the precondition — every entry of k, q, v finite (Proof/Finite.lean) — that makes every
  logit, maximum, exponential and sum a real, the sum of exponentials moreover positive (Proof/Softmax.lean,
  Proof/Spec.lean). No operation was rewritten between the kernel and its idealization, so that conjunct is trivial;
  the three frames are the generated ones.
-/
import proofs.«133170_j38044820308072_2_alg».proof.Defs
import proofs.«133170_j38044820308072_2_alg».proof.Proof.Gen.Kernel
import proofs.«133170_j38044820308072_2_alg».proof.Proof.Gen.Kernel.Skeleton
import proofs.«133170_j38044820308072_2_alg».proof.Proof.Gen.Kernel.Launch
import proofs.«133170_j38044820308072_2_alg».proof.Proof.Gen.Kernel.Points
import proofs.«133170_j38044820308072_2_alg».proof.Proof.Gen.Kernel.Frame
import proofs.«133170_j38044820308072_2_alg».proof.Proof.Gen.KernelIdeal
import proofs.«133170_j38044820308072_2_alg».proof.Proof.Gen.KernelIdeal.Skeleton
import proofs.«133170_j38044820308072_2_alg».proof.Proof.Gen.KernelIdeal.Launch
import proofs.«133170_j38044820308072_2_alg».proof.Proof.Gen.KernelIdeal.Points
import proofs.«133170_j38044820308072_2_alg».proof.Proof.Gen.KernelIdeal.Frame
import proofs.«133170_j38044820308072_2_alg».proof.Proof.Gen.ReferenceIdeal
import proofs.«133170_j38044820308072_2_alg».proof.Proof.Gen.Pre_finite_inputs
import proofs.«133170_j38044820308072_2_alg».proof.Proof.Gen.KernelIdeal.Value
import proofs.«133170_j38044820308072_2_alg».proof.Proof.Gen.ReferenceIdeal.Run
import proofs.«133170_j38044820308072_2_alg».proof.Proof.Gen.ReferenceIdeal.Read
import proofs.«133170_j38044820308072_2_alg».proof.Proof.Softmax
import proofs.«133170_j38044820308072_2_alg».proof.Proof.Spec
import proofs.«133170_j38044820308072_2_alg».proof.Proof.Finite
import proofs.«133170_j38044820308072_2_alg».proof.Proof.KernelBlock
import proofs.«133170_j38044820308072_2_alg».proof.Proof.KernelArray
import proofs.«133170_j38044820308072_2_alg».proof.Proof.RefValue
import Idealize.ShloMosaic.Adequacy
import Idealize.ShloMosaic.Init

noncomputable section

namespace Cert.Proof

open Idealize.ShloMosaic Idealize.ShloMosaic.ValueIdx Idealize.SL.Sem Cert.Attn

/-- The three programs run to the end without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on finite arguments, the kernel's output array and the reference's result are both
    attnArr of the arguments: the kernel's by its blocks, the reference's index by index, where the precondition makes
    its arrangement of the sums and quotients the kernel's. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2]
  obtain ⟨hk, hq, hv⟩ := finite_of_pre _ _ _ (hpre c)
  funext i
  obtain ⟨b, cc, n, rfl⟩ : ∃ (b : Fin 8) (cc : Fin 256) (n : Fin 2048), i = ix3 b cc n := ⟨i 0, i 1, i 2, eq_ix3 i⟩
  rw [Cert.ReferenceIdeal.RefValue.result_apply, attnArr_ix3]
  exact softBefore_scaled_eq_attn _ _ _ hk hq hv b cc n

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
